-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S1x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  main_v23

def fn {F : FTy → Type} [FloatOps F] (main_arg0 : FVec F S10000x10000 .f32) (main_arg1 : FVec F S10000x128 .f32) (main_arg2 : FVec F S128x128 .f32) (main_arg3 : FVec F S128 .f32) (main_arg4 : FVec F S1x128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S200x10000 : Shape := ⟨2, ![200, 10000]⟩
abbrev S400x128 : Shape := ⟨2, ![400, 128]⟩
abbrev S200x128 : Shape := ⟨2, ![200, 128]⟩

abbrev nBuf : Space → Nat
  | .hbm => 8
  | .vmem => 11
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S128x128, .f32⟩
  | .hbm, ⟨6, _⟩ => ⟨S1x128, .f32⟩
  | .hbm, ⟨7, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S400x128, .f32⟩
  | .local _ .vmem, ⟨9, _⟩ => ⟨S400x128, .f32⟩
  | .local _ .vmem, ⟨10, _⟩ => ⟨S10000x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  broadcasts_S1x128_S200x128 : S1x128.Broadcasts S200x128
  inb_S400x128_S200x128_0_0 : ∀ a, (![0, 0] : Fin 2 → Nat) a + S200x128.size a ≤ S400x128.size a
  h_S200x128 : 0 < S200x128.numel
  inb_S400x128_S200x128_200_0 : ∀ a, (![200, 0] : Fin 2 → Nat) a + S200x128.size a ≤ S400x128.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩

abbrev nBuf : Space → Nat
  | .hbm => 13
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S128x128, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelFrameKit.lean ====
/-
  The launch side of the frame of `Kernel`, whose pallas_call streams one matrix through two windows.

  @main is two host operations (a transpose of the weight, a reshape of the linear bias into a row) and then
  the region; `V` is what every buffer holds when the region is entered. A window's block at a grid point is
  read off `V`; an input window's staging buffer holds that block whenever the body runs, fetched at that
  point or kept from an earlier one (the four operands with a constant index map are fetched once). The body
  branches on one condition, "this is the first grid point", decided here over the 25 points.
-/
import proofs.«140354_g27693949124769_cont_9to1_341_8_alg».proof.Proof.Gen.Kernel.Launch
import proofs.«140354_g27693949124769_cont_9to1_341_8_alg».proof.Proof.Gen.Kernel.Skeleton
import proofs.«140354_g27693949124769_cont_9to1_341_8_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the two host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block at every point, fetched there or not, for any proof
    data whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds the window's block at every point, fetched there or not, for any proof
    data whose array is the region-entry one and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds the window's block at every point, fetched there or not, for any proof
    data whose array is the region-entry one and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds the window's block at every point, fetched there or not, for any proof
    data whose array is the region-entry one and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds the window's block at every point, fetched there or not, for any proof
    data whose array is the region-entry one and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds the window's block at every point, fetched there or not, for any proof
    data whose array is the region-entry one and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch: the first grid point -/

/-- The condition of the body's one `scf.if`, from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

theorem N_pos : 0 < cfg0.N := by have h : cfg0.N = 25 := N_0; omega

/-! ## The staging and scratch memrefs the pipeline calls the body with -/

abbrev ms0_0 (t : Fin cfg0.N) : Memref sig .tc .vmem S200x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S400x128 .f32 := win0_6.stage (cfg0.slots t 6)
abbrev hs0_6 (t : Fin cfg0.N) : (ms0_6 t).IsWhole := hstage0_6 ((cfg0.slots t 6).cast nbuf0_6)
/-- The scratch operand: a whole scoped buffer of the kernel's own, which carries the linear stage from the first point on. -/
abbrev scM0_0 : Memref sig .tc .vmem S10000x128 .f32 := Memref.whole cc0_scratch0
abbrev VS0_0 : View sig .tc .vmem S10000x128 .f32 := scM0_0.view
/-- One staging buffer of the output window, through which its contents are stated (the choice does not matter). -/
abbrev VO0_6 : View sig .tc .vmem S400x128 .f32 := (Memref.whole cc0_stg6_0 : Memref sig .tc .vmem S400x128 .f32).view

/-- The core's scoped buffers that are no staging buffer are the one scratch operand, owned at some contents. -/
theorem scratch_eq (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.Kernel.Hand

end
-- ==== Proof.KernelRunFirst.lean ====
/-
  The kernel body run at the FIRST grid point: the linear stage `x · Wᵀ + b` is computed and stored whole
  into the scratch, read back, and the two 200-row products with it (plus the bias row) are stored into
  the two halves of the output block. The run is made once on symbolic whole staging memrefs; the pieces
  the stores leave in the output block and in the scratch are what the run finds.
-/
import proofs.«140354_g27693949124769_cont_9to1_341_8_alg».proof.Proof.KernelFrameKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- At the first point: from the six inputs' staging buffers at their contents, the output's and the scratch at
    anything, the body runs to the continuation holding the inputs as they were, the output's buffer with the
    pieces `L6` written and the scratch with the pieces `LS0` written. -/
noncomputable def kernelRun0_A (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (hc0 : cond0_0 i)
    (x0 : Vec F S200x10000 .f32) (x1 : Vec F S200x10000 .f32) (x2 : Vec F S10000x128 .f32) (x3 : Vec F S128x128 .f32) (x4 : Vec F S1x128 .f32) (x5 : Vec F S1x128 .f32) :
    Σ' (L6 : List (View.Piece (Elt F) S400x128 .f32)), { LS0 : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

end Cert.Kernel.Hand

end
-- ==== Proof.KernelRunLater.lean ====
/-
  The kernel body run at a LATER grid point: nothing is recomputed; the scratch still holds the linear
  stage the first point stored, and the two 200-row products with it (plus the bias row) are stored into
  the two halves of the output block. The pieces the stores leave in the output block are what the run finds.
-/
import proofs.«140354_g27693949124769_cont_9to1_341_8_alg».proof.Proof.KernelFrameKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- After the first point: from the six inputs' staging buffers at their contents, the scratch at the contents `xs0`
    it carries, the output's at anything, the body runs to the continuation holding the inputs and the scratch as
    they were and the output's buffer with the pieces `L6` written. -/
noncomputable def kernelRun0_B (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (hc0 : ¬cond0_0 i)
    (x0 : Vec F S200x10000 .f32) (x1 : Vec F S200x10000 .f32) (x2 : Vec F S10000x128 .f32) (x3 : Vec F S128x128 .f32) (x4 : Vec F S1x128 .f32) (x5 : Vec F S1x128 .f32) (xs0 : Vec F S10000x128 .f32) :
    { L6 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xs0) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; isplitr; · ipureintro; exact harg8.read_unread _
    iexact HS0

end Cert.Kernel.Hand

end
-- ==== Proof.KernelBody.lean ====
/-
  The proof data of `Kernel`'s one pipeline and the body obligation at every grid point.

  After the body at a point each input window's staging buffer still holds the window's block; the output
  window's holds the two 200-row pieces the point's stores left. The kernel's scratch is tracked by the region
  invariant: before the first point it holds anything; from then on it holds the linear stage the first point
  stored (`supp`), which no later point overwrites. The two windows that stream the adjacency matrix hold
  their common array at the two halves of the full share.
-/
import proofs.«140354_g27693949124769_cont_9to1_341_8_alg».proof.Proof.KernelRunFirst
import proofs.«140354_g27693949124769_cont_9to1_341_8_alg».proof.Proof.KernelRunLater
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the runs leave -/

/-- The first point's two stores into the output block tile it. -/
theorem cover0_A_6 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (hc0 : cond0_0 i)
    (x0 : Vec F S200x10000 .f32) (x1 : Vec F S200x10000 .f32) (x2 : Vec F S10000x128 .f32) (x3 : Vec F S128x128 .f32) (x4 : Vec F S1x128 .f32) (x5 : Vec F S1x128 .f32) (y : S400x128.Idx) :
    ∃ pc ∈ (kernelRun0_A c i arg1 harg1 arg2 harg2 arg3 harg3 arg4 harg4 arg5 harg5 arg6 harg6 arg7 harg7 arg8 harg8 hc0 x0 x1 x2 x3 x4 x5).1, y ∈ pc.1.set :=
  View.cover_of_tiledL (kernelRun0_A c i arg1 harg1 arg2 harg2 arg3 harg3 arg4 harg4 arg5 harg5 arg6 harg6 arg7 harg7 arg8 harg8 hc0 x0 x1 x2 x3 x4 x5).1 S200x128.size (by sl_kernel_rfl) y

/-- What the first point leaves in the output's staging buffer: its pieces read back. -/
def out0_A_6 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (hc0 : cond0_0 i)
    (x0 : Vec F S200x10000 .f32) (x1 : Vec F S200x10000 .f32) (x2 : Vec F S10000x128 .f32) (x3 : Vec F S128x128 .f32) (x4 : Vec F S1x128 .f32) (x5 : Vec F S1x128 .f32) : Vec F S400x128 .f32 :=
  VO0_6.read (Elt F) (VO0_6.writes (Elt F) VO0_6.junk (kernelRun0_A c i arg1 harg1 arg2 harg2 arg3 harg3 arg4 harg4 arg5 harg5 arg6 harg6 arg7 harg7 arg8 harg8 hc0 x0 x1 x2 x3 x4 x5).1)

/-- The first point's one store into the scratch covers it. -/
theorem scover0_A_0 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (hc0 : cond0_0 i)
    (x0 : Vec F S200x10000 .f32) (x1 : Vec F S200x10000 .f32) (x2 : Vec F S10000x128 .f32) (x3 : Vec F S128x128 .f32) (x4 : Vec F S1x128 .f32) (x5 : Vec F S1x128 .f32) (y : S10000x128.Idx) :
    ∃ pc ∈ (kernelRun0_A c i arg1 harg1 arg2 harg2 arg3 harg3 arg4 harg4 arg5 harg5 arg6 harg6 arg7 harg7 arg8 harg8 hc0 x0 x1 x2 x3 x4 x5).2.1, y ∈ pc.1.set :=
  View.cover_of_tiledL (kernelRun0_A c i arg1 harg1 arg2 harg2 arg3 harg3 arg4 harg4 arg5 harg5 arg6 harg6 arg7 harg7 arg8 harg8 hc0 x0 x1 x2 x3 x4 x5).2.1 S10000x128.size (by sl_kernel_rfl) y

/-- What the first point leaves in the scratch: its piece read back. -/
def sout0_A_0 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (hc0 : cond0_0 i)
    (x0 : Vec F S200x10000 .f32) (x1 : Vec F S200x10000 .f32) (x2 : Vec F S10000x128 .f32) (x3 : Vec F S128x128 .f32) (x4 : Vec F S1x128 .f32) (x5 : Vec F S1x128 .f32) : Vec F S10000x128 .f32 :=
  VS0_0.read (Elt F) (VS0_0.writes (Elt F) VS0_0.junk (kernelRun0_A c i arg1 harg1 arg2 harg2 arg3 harg3 arg4 harg4 arg5 harg5 arg6 harg6 arg7 harg7 arg8 harg8 hc0 x0 x1 x2 x3 x4 x5).2.1)

/-- A later point's two stores into the output block tile it. -/
theorem cover0_B_6 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (hc0 : ¬cond0_0 i)
    (x0 : Vec F S200x10000 .f32) (x1 : Vec F S200x10000 .f32) (x2 : Vec F S10000x128 .f32) (x3 : Vec F S128x128 .f32) (x4 : Vec F S1x128 .f32) (x5 : Vec F S1x128 .f32) (xs0 : Vec F S10000x128 .f32) (y : S400x128.Idx) :
    ∃ pc ∈ (kernelRun0_B c i arg1 harg1 arg2 harg2 arg3 harg3 arg4 harg4 arg5 harg5 arg6 harg6 arg7 harg7 arg8 harg8 hc0 x0 x1 x2 x3 x4 x5 xs0).1, y ∈ pc.1.set :=
  View.cover_of_tiledL (kernelRun0_B c i arg1 harg1 arg2 harg2 arg3 harg3 arg4 harg4 arg5 harg5 arg6 harg6 arg7 harg7 arg8 harg8 hc0 x0 x1 x2 x3 x4 x5 xs0).1 S200x128.size (by sl_kernel_rfl) y

/-- What a later point leaves in the output's staging buffer: its pieces read back. -/
def out0_B_6 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (hc0 : ¬cond0_0 i)
    (x0 : Vec F S200x10000 .f32) (x1 : Vec F S200x10000 .f32) (x2 : Vec F S10000x128 .f32) (x3 : Vec F S128x128 .f32) (x4 : Vec F S1x128 .f32) (x5 : Vec F S1x128 .f32) (xs0 : Vec F S10000x128 .f32) : Vec F S400x128 .f32 :=
  VO0_6.read (Elt F) (VO0_6.writes (Elt F) VO0_6.junk (kernelRun0_B c i arg1 harg1 arg2 harg2 arg3 harg3 arg4 harg4 arg5 harg5 arg6 harg6 arg7 harg7 arg8 harg8 hc0 x0 x1 x2 x3 x4 x5 xs0).1)

/-! ## Point by point -/

/-- The first grid point. -/
abbrev t₀ : Fin cfg0.N := ⟨0, N_pos⟩

/-- The linear stage as the first point leaves it in the scratch. -/
def supp (c : Dev nD) : Vec F S10000x128 .f32 :=
  sout0_A_0 c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) scM0_0 (Memref.isWhole_whole _) ((hcond0_0 t₀).mpr rfl) (iblk m c 0 t₀) (iblk m c 1 t₀) (iblk m c 2 t₀) (iblk m c 3 t₀) (iblk m c 4 t₀) (iblk m c 5 t₀)

/-- What the body leaves in the output's staging buffer at point `t`. -/
def out6 (c : Dev nD) (t : Fin cfg0.N) : Vec F S400x128 .f32 :=
  if h : t.val = 0 then
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h) (iblk m c 0 t) (iblk m c 1 t) (iblk m c 2 t) (iblk m c 3 t) (iblk m c 4 t) (iblk m c 5 t)
  else
    out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hc => h ((hcond0_0 t).mp hc)) (iblk m c 0 t) (iblk m c 1 t) (iblk m c 2 t) (iblk m c 3 t) (iblk m c 4 t) (iblk m c 5 t) (supp m c)

/-- The region invariant before position `n`: before the first point the scratch at anything; afterwards the scratch
    at the linear stage. -/
def PhiS (c : Dev nD) : ℕ → sProp 𝕄
  | 0 => Pipeline.scopedRest (Ix := Unit) (Name := ℕ) (U := UR sig nD τ) (Lvl := ℕ) (Val := Elt F) spec0 c
  | _ + 1 => owns (c : Thread nD τ) scM0_0 fullShare (supp m c)

theorem PhiS_zero (c : Dev nD) : PhiS m c 0 = iprop(∃ d, owns (c : Thread nD τ) scM0_0 fullShare d) := scratch_eq c
theorem PhiS_pos (c : Dev nD) (n : ℕ) (hz : n ≠ 0) : PhiS m c n = owns (c : Thread nD τ) scM0_0 fullShare (supp m c) := by
  cases n with
  | zero => exact absurd rfl hz
  | succ n => rfl

/-! ## The pipeline's proof data -/

/-- The proof data on core `c`: the arrays as the region finds them; after the body each input's buffer at its block
    and the output's at `out6`; the invariant `PhiS`; the two adjacency windows at the two halves of the full share,
    every other input at the full share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
  Φ t := PhiS m c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- No window is idle at any point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point. At the first point the invariant hands it the scratch at anything and takes it back at the
    linear stage; at a later point it hands the scratch at the linear stage and takes it back unchanged. The inputs'
    buffers hold their blocks and are left as found; the output's buffer ends at the pieces the run found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [PhiS_pos m c (t.val + 1) (Nat.succ_ne_zero _)]
  rw [show (dats m 0 c).leavesExact 0 t = owns (c : Thread nD τ) (ms0_0 t) fullShare ((dats m 0 c).after 0 t) from by
    unfold Dat.leavesExact; rw [liveAt0_0 t]]
  rw [show (dats m 0 c).leavesExact 1 t = owns (c : Thread nD τ) (ms0_1 t) fullShare ((dats m 0 c).after 1 t) from by
    unfold Dat.leavesExact; rw [liveAt0_1 t]]
  rw [show (dats m 0 c).leavesExact 2 t = owns (c : Thread nD τ) (ms0_2 t) fullShare ((dats m 0 c).after 2 t) from by
    unfold Dat.leavesExact; rw [liveAt0_2 t]]
  rw [show (dats m 0 c).leavesExact 3 t = owns (c : Thread nD τ) (ms0_3 t) fullShare ((dats m 0 c).after 3 t) from by
    unfold Dat.leavesExact; rw [liveAt0_3 t]]
  rw [show (dats m 0 c).leavesExact 4 t = owns (c : Thread nD τ) (ms0_4 t) fullShare ((dats m 0 c).after 4 t) from by
    unfold Dat.leavesExact; rw [liveAt0_4 t]]
  rw [show (dats m 0 c).leavesExact 5 t = owns (c : Thread nD τ) (ms0_5 t) fullShare ((dats m 0 c).after 5 t) from by
    unfold Dat.leavesExact; rw [liveAt0_5 t]]
  rw [show (dats m 0 c).leavesExact 6 t = owns (c : Thread nD τ) (ms0_6 t) fullShare ((dats m 0 c).after 6 t) from by
    unfold Dat.leavesExact; rw [liveAt0_6 t]]
  rw [after0_0, after0_1, after0_2, after0_3, after0_4, after0_5, after0_6]
  by_cases h0 : t.val = 0
  · obtain rfl : t = t₀ := Fin.ext h0
    rw [show PhiS m c (t₀ : Fin cfg0.N).val = PhiS m c 0 from rfl, PhiS_zero]
    unfold out6; rw [dif_pos rfl]; unfold out0_A_6 supp sout0_A_0; (try dsimp only)
    iintro ⟨HS0, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t₀) _ _ _ _ _ _ _ _ _ _ _ _ _ _ _ _ ((hcond0_0 t₀).mpr rfl) (iblk m c 0 t₀) (iblk m c 1 t₀) (iblk m c 2 t₀) (iblk m c 3 t₀) (iblk m c 4 t₀) (iblk m c 5 t₀)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, ⟨%e6, H6⟩, ⟨%es0, HS0⟩⟩
    isplitl [HS0]
    · unfold owns; iexists _; isplitr
      swap; · iexact HS0
      ipureintro; exact View.read_writes_of_cover _ _ _ _ _ (scover0_A_0 c _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover0_A_6 c _ _ _ _ _ _ _ _ _ _ _ _ _ _ _ _ _ _ _ _ _ _ _ _)
  · rw [PhiS_pos m c t.val h0]
    unfold out6; rw [dif_neg h0]; unfold out0_B_6; (try dsimp only)
    iintro ⟨HS0, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ (fun hc => h0 ((hcond0_0 t).mp hc)) (iblk m c 0 t) (iblk m c 1 t) (iblk m c 2 t) (iblk m c 3 t) (iblk m c 4 t) (iblk m c 5 t) (supp m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, ⟨%e6, H6⟩, HS0⟩
    isplitl [HS0]; · iexact HS0
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover0_B_6 c _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- The scratch at anything is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 :=
  Idealize.SL.BI.Entails.refl _

/-- After the last point the invariant gives the scratch back, its contents forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val from rfl,
    PhiS_pos m c _ (by rw [Fin.val_last]; have : cfg0.N = 25 := N_0; omega), scratch_eq]
  iintro H; iexists _; iexact H

end Cert.Kernel.Hand

end
-- ==== Proof.LibSharedArrayFrame.lean ====
/-
  The frame run of a one-region pipeline several of whose INPUT windows read ONE array.

  A pallas_call may be handed the same array through several `in_specs` (here: two row-blocks of one
  matrix streamed side by side). The windows' arrays are then not distinct, and the buffers behind them,
  each held whole at the full share when the region is entered, have to be DEALT among the windows: an
  array read by several windows is split share by share, every window getting a positive part of it, and
  an array read by one window goes to it whole. That deal is the hypothesis `hsplit`; everything else is
  the plain frame run: the kernel owns no semaphore, every unscoped buffer that is no window's array passes
  by the region untouched, the kernel's scratch is handed to the invariant before the first point and taken
  back after the last (so an invariant may track what the scratch holds from point to point), and at the
  end every window's array holds what the write-backs made of it, every other unscoped buffer what it held
  when the region was entered.
-/
import Idealize.ShloMosaic.Lib.Pipeline.Frame

noncomputable section

namespace Cert.Lib.SharedArrayFrame

open Idealize.ShloMosaic Idealize.ShloMosaic.Pipeline
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.TcCoe
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The frame run with shared input arrays. `hsplit`: the buffers behind the windows' arrays, whole at the
    region-entry contents `V`, yield the proof data's arrays at entry, each window at its share. `hin` /
    `hout`: the kernel's scratch (every scoped buffer that is no staging buffer, at some contents) yields the
    invariant before the first point, and the invariant after the last point yields it back. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr
      · iempintro
      · iexact H)
    (hin := fun c => (show _ ⊢ (scopedRest (cfgs p).spec c : sProp 𝕄) from by iintro ⟨-, H⟩; iexact H).trans (hin c))
    (hout := fun c => (hout c).trans (by
      iintro H
      isplitr
      · iempintro
      · iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.Lib.SharedArrayFrame

end
-- ==== Proof.KernelFrame.lean ====
/-
  The frame of `Kernel`: every weakly fair execution terminates, nothing faults, and the five argument arrays
  end as they were launched.

  The adjacency matrix is handed to the pallas_call twice, so two windows read one array. When the region is
  entered that array's buffer is held whole; it is dealt to the two windows at the two halves of the full share,
  every other array going whole to its one window (`hsplit`). The run is then the shared-array frame run over
  the proof data, and the frame claim reads each argument back: a windowed input array is never written, and an
  argument no window stages (the weight and the linear bias, which the host operations only read) passes by the
  region untouched.
-/
import proofs.«140354_g27693949124769_cont_9to1_341_8_alg».proof.Proof.KernelBody
import proofs.«140354_g27693949124769_cont_9to1_341_8_alg».proof.Proof.LibSharedArrayFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A window's array at entry, as the buffer behind it at the region-entry contents and the window's share. -/
theorem arr_pt (c : Dev nD) (w : Fin cfg0.W) :
    ((cfg0.win w).arr.view.loc (c : Thread nD τ) ↦[(cfg0.win w).arr.view.set]{(dats m 0 c).share w} (dats m 0 c).arrAt w 0 : sProp 𝕄)
      = (((c : Thread nD τ).loc (Pipeline.arrRef spec0 w)) ↦{(dats m 0 c).share w} V m c (Pipeline.arrRef spec0 w)) := by
  have hA : (dats m 0 c).arrAt w 0 = V m c (Pipeline.arrRef spec0 w) := A_eq m c w
  rw [(arr_whole0 w).set_eq_univ, hA]

/-- The six buffers behind the seven windows' arrays, one by one. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg1) ↦{fullShare} V m c main_arg1)
          ∗ (((c : Thread nD τ).loc main_call0_v0) ↦{fullShare} V m c main_call0_v0) ∗ (((c : Thread nD τ).loc main_call0_v1) ↦{fullShare} V m c main_call0_v1)
          ∗ (((c : Thread nD τ).loc main_arg4) ↦{fullShare} V m c main_arg4) ∗ (((c : Thread nD τ).loc main_v0) ↦{fullShare} V m c main_v0)) := by
  unfold Pipeline.arrBufs
  exact bigSep_eq_bigSepL_of_eq [main_arg0, main_arg1, main_call0_v0, main_call0_v1, main_arg4, main_v0] (by decide) (by decide) _

/-- The deal: the six buffers behind the seven windows' arrays, whole at the region-entry contents, are the proof
    data's arrays at entry — the adjacency matrix's buffer split into its two half shares. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_congr (fun w _ => arr_pt m c w), bigSep_W0]
  iintro ⟨Ha0, Ha1, Hv0, Hv1, Ha4, Ho⟩
  ihave Hs := (pointsTo_share (PosShare.mem_left_op_right fullShare)).1 $$ Ha0
  icases Hs with ⟨Hl, Hr⟩
  isplitl [Hl]; · iexact Hl
  isplitl [Hr]; · iexact Hr
  isplitl [Ha1]; · iexact Ha1
  isplitl [Hv0]; · iexact Hv0
  isplitl [Hv1]; · iexact Hv1
  isplitl [Ha4]; · iexact Ha4
  iexact Ho

set_option backward.isDefEq.respectTransparency.types false in
/-- The run: every array of the pipeline ends at what the write-backs made of it, every other unscoped buffer as the
    region found it. -/
theorem run_main : θ_run defs (onTc (τ := τ) (main (F := F))) (s₀ m ρ) (Pipeline.FramePost cfgs (dats m) 0 (V m)) :=
  Cert.Lib.SharedArrayFrame.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := hin m) (hout := hout m)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c)))⟩) (run_main m ρ)

end Cert.Kernel.Hand

end
-- ==== Proof.KernelIdealFrameKit.lean ====
/-
  The launch side of the frame of `KernelIdeal`, whose pallas_call streams one matrix through two windows.

  @main is two host operations (a transpose of the weight, a reshape of the linear bias into a row) and then
  the region; `V` is what every buffer holds when the region is entered. A window's block at a grid point is
  read off `V`; an input window's staging buffer holds that block whenever the body runs, fetched at that
  point or kept from an earlier one (the four operands with a constant index map are fetched once). The body
  branches on one condition, "this is the first grid point", decided here over the 25 points.
-/
import proofs.«140354_g27693949124769_cont_9to1_341_8_alg».proof.Proof.Gen.KernelIdeal.Launch
import proofs.«140354_g27693949124769_cont_9to1_341_8_alg».proof.Proof.Gen.KernelIdeal.Skeleton
import proofs.«140354_g27693949124769_cont_9to1_341_8_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the two host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block at every point, fetched there or not, for any proof
    data whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds the window's block at every point, fetched there or not, for any proof
    data whose array is the region-entry one and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds the window's block at every point, fetched there or not, for any proof
    data whose array is the region-entry one and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds the window's block at every point, fetched there or not, for any proof
    data whose array is the region-entry one and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds the window's block at every point, fetched there or not, for any proof
    data whose array is the region-entry one and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds the window's block at every point, fetched there or not, for any proof
    data whose array is the region-entry one and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch: the first grid point -/

/-- The condition of the body's one `scf.if`, from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

theorem N_pos : 0 < cfg0.N := by have h : cfg0.N = 25 := N_0; omega

/-! ## The staging and scratch memrefs the pipeline calls the body with -/

abbrev ms0_0 (t : Fin cfg0.N) : Memref sig .tc .vmem S200x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S400x128 .f32 := win0_6.stage (cfg0.slots t 6)
abbrev hs0_6 (t : Fin cfg0.N) : (ms0_6 t).IsWhole := hstage0_6 ((cfg0.slots t 6).cast nbuf0_6)
/-- The scratch operand: a whole scoped buffer of the kernel's own, which carries the linear stage from the first point on. -/
abbrev scM0_0 : Memref sig .tc .vmem S10000x128 .f32 := Memref.whole cc0_scratch0
abbrev VS0_0 : View sig .tc .vmem S10000x128 .f32 := scM0_0.view
/-- One staging buffer of the output window, through which its contents are stated (the choice does not matter). -/
abbrev VO0_6 : View sig .tc .vmem S400x128 .f32 := (Memref.whole cc0_stg6_0 : Memref sig .tc .vmem S400x128 .f32).view

/-- The core's scoped buffers that are no staging buffer are the one scratch operand, owned at some contents. -/
theorem scratch_eq (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.KernelIdeal.Hand

end
-- ==== Proof.KernelIdealRunFirst.lean ====
/-
  The kernel body run at the FIRST grid point: the linear stage `x · Wᵀ + b` is computed and stored whole
  into the scratch, read back, and the two 200-row products with it (plus the bias row) are stored into
  the two halves of the output block. The run is made once on symbolic whole staging memrefs; the pieces
  the stores leave in the output block and in the scratch are what the run finds.
-/
import proofs.«140354_g27693949124769_cont_9to1_341_8_alg».proof.Proof.KernelIdealFrameKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- At the first point: from the six inputs' staging buffers at their contents, the output's and the scratch at
    anything, the body runs to the continuation holding the inputs as they were, the output's buffer with the
    pieces `L6` written and the scratch with the pieces `LS0` written. -/
noncomputable def kernelRun0_A (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (hc0 : cond0_0 i)
    (x0 : Vec F S200x10000 .f32) (x1 : Vec F S200x10000 .f32) (x2 : Vec F S10000x128 .f32) (x3 : Vec F S128x128 .f32) (x4 : Vec F S1x128 .f32) (x5 : Vec F S1x128 .f32) :
    Σ' (L6 : List (View.Piece (Elt F) S400x128 .f32)), { LS0 : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

end Cert.KernelIdeal.Hand

end
-- ==== Proof.KernelIdealRunLater.lean ====
/-
  The kernel body run at a LATER grid point: nothing is recomputed; the scratch still holds the linear
  stage the first point stored, and the two 200-row products with it (plus the bias row) are stored into
  the two halves of the output block. The pieces the stores leave in the output block are what the run finds.
-/
import proofs.«140354_g27693949124769_cont_9to1_341_8_alg».proof.Proof.KernelIdealFrameKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- After the first point: from the six inputs' staging buffers at their contents, the scratch at the contents `xs0`
    it carries, the output's at anything, the body runs to the continuation holding the inputs and the scratch as
    they were and the output's buffer with the pieces `L6` written. -/
noncomputable def kernelRun0_B (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (hc0 : ¬cond0_0 i)
    (x0 : Vec F S200x10000 .f32) (x1 : Vec F S200x10000 .f32) (x2 : Vec F S10000x128 .f32) (x3 : Vec F S128x128 .f32) (x4 : Vec F S1x128 .f32) (x5 : Vec F S1x128 .f32) (xs0 : Vec F S10000x128 .f32) :
    { L6 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xs0) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; isplitr; · ipureintro; exact harg8.read_unread _
    iexact HS0

end Cert.KernelIdeal.Hand

end
-- ==== Proof.KernelIdealBody.lean ====
/-
  The proof data of `KernelIdeal`'s one pipeline and the body obligation at every grid point.

  After the body at a point each input window's staging buffer still holds the window's block; the output
  window's holds the two 200-row pieces the point's stores left. The kernel's scratch is tracked by the region
  invariant: before the first point it holds anything; from then on it holds the linear stage the first point
  stored (`supp`), which no later point overwrites. The two windows that stream the adjacency matrix hold
  their common array at the two halves of the full share.
-/
import proofs.«140354_g27693949124769_cont_9to1_341_8_alg».proof.Proof.KernelIdealRunFirst
import proofs.«140354_g27693949124769_cont_9to1_341_8_alg».proof.Proof.KernelIdealRunLater
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the runs leave -/

/-- The first point's two stores into the output block tile it. -/
theorem cover0_A_6 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (hc0 : cond0_0 i)
    (x0 : Vec F S200x10000 .f32) (x1 : Vec F S200x10000 .f32) (x2 : Vec F S10000x128 .f32) (x3 : Vec F S128x128 .f32) (x4 : Vec F S1x128 .f32) (x5 : Vec F S1x128 .f32) (y : S400x128.Idx) :
    ∃ pc ∈ (kernelRun0_A c i arg1 harg1 arg2 harg2 arg3 harg3 arg4 harg4 arg5 harg5 arg6 harg6 arg7 harg7 arg8 harg8 hc0 x0 x1 x2 x3 x4 x5).1, y ∈ pc.1.set :=
  View.cover_of_tiledL (kernelRun0_A c i arg1 harg1 arg2 harg2 arg3 harg3 arg4 harg4 arg5 harg5 arg6 harg6 arg7 harg7 arg8 harg8 hc0 x0 x1 x2 x3 x4 x5).1 S200x128.size (by sl_kernel_rfl) y

/-- What the first point leaves in the output's staging buffer: its pieces read back. -/
def out0_A_6 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (hc0 : cond0_0 i)
    (x0 : Vec F S200x10000 .f32) (x1 : Vec F S200x10000 .f32) (x2 : Vec F S10000x128 .f32) (x3 : Vec F S128x128 .f32) (x4 : Vec F S1x128 .f32) (x5 : Vec F S1x128 .f32) : Vec F S400x128 .f32 :=
  VO0_6.read (Elt F) (VO0_6.writes (Elt F) VO0_6.junk (kernelRun0_A c i arg1 harg1 arg2 harg2 arg3 harg3 arg4 harg4 arg5 harg5 arg6 harg6 arg7 harg7 arg8 harg8 hc0 x0 x1 x2 x3 x4 x5).1)

/-- The first point's one store into the scratch covers it. -/
theorem scover0_A_0 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (hc0 : cond0_0 i)
    (x0 : Vec F S200x10000 .f32) (x1 : Vec F S200x10000 .f32) (x2 : Vec F S10000x128 .f32) (x3 : Vec F S128x128 .f32) (x4 : Vec F S1x128 .f32) (x5 : Vec F S1x128 .f32) (y : S10000x128.Idx) :
    ∃ pc ∈ (kernelRun0_A c i arg1 harg1 arg2 harg2 arg3 harg3 arg4 harg4 arg5 harg5 arg6 harg6 arg7 harg7 arg8 harg8 hc0 x0 x1 x2 x3 x4 x5).2.1, y ∈ pc.1.set :=
  View.cover_of_tiledL (kernelRun0_A c i arg1 harg1 arg2 harg2 arg3 harg3 arg4 harg4 arg5 harg5 arg6 harg6 arg7 harg7 arg8 harg8 hc0 x0 x1 x2 x3 x4 x5).2.1 S10000x128.size (by sl_kernel_rfl) y

/-- What the first point leaves in the scratch: its piece read back. -/
def sout0_A_0 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (hc0 : cond0_0 i)
    (x0 : Vec F S200x10000 .f32) (x1 : Vec F S200x10000 .f32) (x2 : Vec F S10000x128 .f32) (x3 : Vec F S128x128 .f32) (x4 : Vec F S1x128 .f32) (x5 : Vec F S1x128 .f32) : Vec F S10000x128 .f32 :=
  VS0_0.read (Elt F) (VS0_0.writes (Elt F) VS0_0.junk (kernelRun0_A c i arg1 harg1 arg2 harg2 arg3 harg3 arg4 harg4 arg5 harg5 arg6 harg6 arg7 harg7 arg8 harg8 hc0 x0 x1 x2 x3 x4 x5).2.1)

/-- A later point's two stores into the output block tile it. -/
theorem cover0_B_6 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (hc0 : ¬cond0_0 i)
    (x0 : Vec F S200x10000 .f32) (x1 : Vec F S200x10000 .f32) (x2 : Vec F S10000x128 .f32) (x3 : Vec F S128x128 .f32) (x4 : Vec F S1x128 .f32) (x5 : Vec F S1x128 .f32) (xs0 : Vec F S10000x128 .f32) (y : S400x128.Idx) :
    ∃ pc ∈ (kernelRun0_B c i arg1 harg1 arg2 harg2 arg3 harg3 arg4 harg4 arg5 harg5 arg6 harg6 arg7 harg7 arg8 harg8 hc0 x0 x1 x2 x3 x4 x5 xs0).1, y ∈ pc.1.set :=
  View.cover_of_tiledL (kernelRun0_B c i arg1 harg1 arg2 harg2 arg3 harg3 arg4 harg4 arg5 harg5 arg6 harg6 arg7 harg7 arg8 harg8 hc0 x0 x1 x2 x3 x4 x5 xs0).1 S200x128.size (by sl_kernel_rfl) y

/-- What a later point leaves in the output's staging buffer: its pieces read back. -/
def out0_B_6 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (hc0 : ¬cond0_0 i)
    (x0 : Vec F S200x10000 .f32) (x1 : Vec F S200x10000 .f32) (x2 : Vec F S10000x128 .f32) (x3 : Vec F S128x128 .f32) (x4 : Vec F S1x128 .f32) (x5 : Vec F S1x128 .f32) (xs0 : Vec F S10000x128 .f32) : Vec F S400x128 .f32 :=
  VO0_6.read (Elt F) (VO0_6.writes (Elt F) VO0_6.junk (kernelRun0_B c i arg1 harg1 arg2 harg2 arg3 harg3 arg4 harg4 arg5 harg5 arg6 harg6 arg7 harg7 arg8 harg8 hc0 x0 x1 x2 x3 x4 x5 xs0).1)

/-! ## Point by point -/

/-- The first grid point. -/
abbrev t₀ : Fin cfg0.N := ⟨0, N_pos⟩

/-- The linear stage as the first point leaves it in the scratch. -/
def supp (c : Dev nD) : Vec F S10000x128 .f32 :=
  sout0_A_0 c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) scM0_0 (Memref.isWhole_whole _) ((hcond0_0 t₀).mpr rfl) (iblk m c 0 t₀) (iblk m c 1 t₀) (iblk m c 2 t₀) (iblk m c 3 t₀) (iblk m c 4 t₀) (iblk m c 5 t₀)

/-- What the body leaves in the output's staging buffer at point `t`. -/
def out6 (c : Dev nD) (t : Fin cfg0.N) : Vec F S400x128 .f32 :=
  if h : t.val = 0 then
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h) (iblk m c 0 t) (iblk m c 1 t) (iblk m c 2 t) (iblk m c 3 t) (iblk m c 4 t) (iblk m c 5 t)
  else
    out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hc => h ((hcond0_0 t).mp hc)) (iblk m c 0 t) (iblk m c 1 t) (iblk m c 2 t) (iblk m c 3 t) (iblk m c 4 t) (iblk m c 5 t) (supp m c)

/-- The region invariant before position `n`: before the first point the scratch at anything; afterwards the scratch
    at the linear stage. -/
def PhiS (c : Dev nD) : ℕ → sProp 𝕄
  | 0 => Pipeline.scopedRest (Ix := Unit) (Name := ℕ) (U := UR sig nD τ) (Lvl := ℕ) (Val := Elt F) spec0 c
  | _ + 1 => owns (c : Thread nD τ) scM0_0 fullShare (supp m c)

theorem PhiS_zero (c : Dev nD) : PhiS m c 0 = iprop(∃ d, owns (c : Thread nD τ) scM0_0 fullShare d) := scratch_eq c
theorem PhiS_pos (c : Dev nD) (n : ℕ) (hz : n ≠ 0) : PhiS m c n = owns (c : Thread nD τ) scM0_0 fullShare (supp m c) := by
  cases n with
  | zero => exact absurd rfl hz
  | succ n => rfl

/-! ## The pipeline's proof data -/

/-- The proof data on core `c`: the arrays as the region finds them; after the body each input's buffer at its block
    and the output's at `out6`; the invariant `PhiS`; the two adjacency windows at the two halves of the full share,
    every other input at the full share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
  Φ t := PhiS m c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- No window is idle at any point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point. At the first point the invariant hands it the scratch at anything and takes it back at the
    linear stage; at a later point it hands the scratch at the linear stage and takes it back unchanged. The inputs'
    buffers hold their blocks and are left as found; the output's buffer ends at the pieces the run found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [PhiS_pos m c (t.val + 1) (Nat.succ_ne_zero _)]
  rw [show (dats m 0 c).leavesExact 0 t = owns (c : Thread nD τ) (ms0_0 t) fullShare ((dats m 0 c).after 0 t) from by
    unfold Dat.leavesExact; rw [liveAt0_0 t]]
  rw [show (dats m 0 c).leavesExact 1 t = owns (c : Thread nD τ) (ms0_1 t) fullShare ((dats m 0 c).after 1 t) from by
    unfold Dat.leavesExact; rw [liveAt0_1 t]]
  rw [show (dats m 0 c).leavesExact 2 t = owns (c : Thread nD τ) (ms0_2 t) fullShare ((dats m 0 c).after 2 t) from by
    unfold Dat.leavesExact; rw [liveAt0_2 t]]
  rw [show (dats m 0 c).leavesExact 3 t = owns (c : Thread nD τ) (ms0_3 t) fullShare ((dats m 0 c).after 3 t) from by
    unfold Dat.leavesExact; rw [liveAt0_3 t]]
  rw [show (dats m 0 c).leavesExact 4 t = owns (c : Thread nD τ) (ms0_4 t) fullShare ((dats m 0 c).after 4 t) from by
    unfold Dat.leavesExact; rw [liveAt0_4 t]]
  rw [show (dats m 0 c).leavesExact 5 t = owns (c : Thread nD τ) (ms0_5 t) fullShare ((dats m 0 c).after 5 t) from by
    unfold Dat.leavesExact; rw [liveAt0_5 t]]
  rw [show (dats m 0 c).leavesExact 6 t = owns (c : Thread nD τ) (ms0_6 t) fullShare ((dats m 0 c).after 6 t) from by
    unfold Dat.leavesExact; rw [liveAt0_6 t]]
  rw [after0_0, after0_1, after0_2, after0_3, after0_4, after0_5, after0_6]
  by_cases h0 : t.val = 0
  · obtain rfl : t = t₀ := Fin.ext h0
    rw [show PhiS m c (t₀ : Fin cfg0.N).val = PhiS m c 0 from rfl, PhiS_zero]
    unfold out6; rw [dif_pos rfl]; unfold out0_A_6 supp sout0_A_0; (try dsimp only)
    iintro ⟨HS0, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t₀) _ _ _ _ _ _ _ _ _ _ _ _ _ _ _ _ ((hcond0_0 t₀).mpr rfl) (iblk m c 0 t₀) (iblk m c 1 t₀) (iblk m c 2 t₀) (iblk m c 3 t₀) (iblk m c 4 t₀) (iblk m c 5 t₀)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, ⟨%e6, H6⟩, ⟨%es0, HS0⟩⟩
    isplitl [HS0]
    · unfold owns; iexists _; isplitr
      swap; · iexact HS0
      ipureintro; exact View.read_writes_of_cover _ _ _ _ _ (scover0_A_0 c _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover0_A_6 c _ _ _ _ _ _ _ _ _ _ _ _ _ _ _ _ _ _ _ _ _ _ _ _)
  · rw [PhiS_pos m c t.val h0]
    unfold out6; rw [dif_neg h0]; unfold out0_B_6; (try dsimp only)
    iintro ⟨HS0, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ (fun hc => h0 ((hcond0_0 t).mp hc)) (iblk m c 0 t) (iblk m c 1 t) (iblk m c 2 t) (iblk m c 3 t) (iblk m c 4 t) (iblk m c 5 t) (supp m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, ⟨%e6, H6⟩, HS0⟩
    isplitl [HS0]; · iexact HS0
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover0_B_6 c _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- The scratch at anything is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 :=
  Idealize.SL.BI.Entails.refl _

/-- After the last point the invariant gives the scratch back, its contents forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val from rfl,
    PhiS_pos m c _ (by rw [Fin.val_last]; have : cfg0.N = 25 := N_0; omega), scratch_eq]
  iintro H; iexists _; iexact H

end Cert.KernelIdeal.Hand

end
-- ==== Proof.KernelIdealFrame.lean ====
/-
  The frame of `KernelIdeal`: every weakly fair execution terminates, nothing faults, and the five argument arrays
  end as they were launched.

  The adjacency matrix is handed to the pallas_call twice, so two windows read one array. When the region is
  entered that array's buffer is held whole; it is dealt to the two windows at the two halves of the full share,
  every other array going whole to its one window (`hsplit`). The run is then the shared-array frame run over
  the proof data, and the frame claim reads each argument back: a windowed input array is never written, and an
  argument no window stages (the weight and the linear bias, which the host operations only read) passes by the
  region untouched.
-/
import proofs.«140354_g27693949124769_cont_9to1_341_8_alg».proof.Proof.KernelIdealBody
import proofs.«140354_g27693949124769_cont_9to1_341_8_alg».proof.Proof.LibSharedArrayFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A window's array at entry, as the buffer behind it at the region-entry contents and the window's share. -/
theorem arr_pt (c : Dev nD) (w : Fin cfg0.W) :
    ((cfg0.win w).arr.view.loc (c : Thread nD τ) ↦[(cfg0.win w).arr.view.set]{(dats m 0 c).share w} (dats m 0 c).arrAt w 0 : sProp 𝕄)
      = (((c : Thread nD τ).loc (Pipeline.arrRef spec0 w)) ↦{(dats m 0 c).share w} V m c (Pipeline.arrRef spec0 w)) := by
  have hA : (dats m 0 c).arrAt w 0 = V m c (Pipeline.arrRef spec0 w) := A_eq m c w
  rw [(arr_whole0 w).set_eq_univ, hA]

/-- The six buffers behind the seven windows' arrays, one by one. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg1) ↦{fullShare} V m c main_arg1)
          ∗ (((c : Thread nD τ).loc main_call0_v0) ↦{fullShare} V m c main_call0_v0) ∗ (((c : Thread nD τ).loc main_call0_v1) ↦{fullShare} V m c main_call0_v1)
          ∗ (((c : Thread nD τ).loc main_arg4) ↦{fullShare} V m c main_arg4) ∗ (((c : Thread nD τ).loc main_v0) ↦{fullShare} V m c main_v0)) := by
  unfold Pipeline.arrBufs
  exact bigSep_eq_bigSepL_of_eq [main_arg0, main_arg1, main_call0_v0, main_call0_v1, main_arg4, main_v0] (by decide) (by decide) _

/-- The deal: the six buffers behind the seven windows' arrays, whole at the region-entry contents, are the proof
    data's arrays at entry — the adjacency matrix's buffer split into its two half shares. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_congr (fun w _ => arr_pt m c w), bigSep_W0]
  iintro ⟨Ha0, Ha1, Hv0, Hv1, Ha4, Ho⟩
  ihave Hs := (pointsTo_share (PosShare.mem_left_op_right fullShare)).1 $$ Ha0
  icases Hs with ⟨Hl, Hr⟩
  isplitl [Hl]; · iexact Hl
  isplitl [Hr]; · iexact Hr
  isplitl [Ha1]; · iexact Ha1
  isplitl [Hv0]; · iexact Hv0
  isplitl [Hv1]; · iexact Hv1
  isplitl [Ha4]; · iexact Ha4
  iexact Ho

set_option backward.isDefEq.respectTransparency.types false in
/-- The run: every array of the pipeline ends at what the write-backs made of it, every other unscoped buffer as the
    region found it. -/
theorem run_main : θ_run defs (onTc (τ := τ) (main (F := F))) (s₀ m ρ) (Pipeline.FramePost cfgs (dats m) 0 (V m)) :=
  Cert.Lib.SharedArrayFrame.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := hin m) (hout := hout m)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c)))⟩) (run_main m ρ)

end Cert.KernelIdeal.Hand

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.LayerSpec.lean ====
/-
  The graph-convolution layer as one function of its five arrays, entry by entry, on the extended reals.

  With an adjacency matrix `adj` (10000 × 10000), node features `x` (10000 × 128), a weight `W` (128 × 128,
  one row per output feature), a linear bias `b` (128) and an output bias row `bias` (1 × 128):

      linear[k, c] = Σ_l x[k, l] · W[c, l] + b[c]
      out[r, c]    = Σ_k adj[r, k] · linear[k, c] + bias[0, c]

  Both programs compute exactly these sums with this grouping, so no law of arithmetic is needed to compare
  them: the kernel reads the weight through its transpose and the linear bias through a one-row reshape
  (`linearT`, `outT`), and computes the rows 400 at a time, which changes no entry.
-/
import Idealize.ShloMosaic.PureOps.Ideal
import Idealize.ShloMosaic.Lib.ValueIdx

noncomputable section

namespace Cert.GraphConv

open Idealize.ShloMosaic Idealize.ShloMosaic.ValueIdx

/-- The linear stage at entry (k, c), the weight given transposed (`wt[l, c]`) and the bias as a row. -/
def linearT (x : FVec Ideal ⟨2, ![10000, 128]⟩ .f32) (wt : FVec Ideal ⟨2, ![128, 128]⟩ .f32) (bl : FVec Ideal ⟨2, ![1, 128]⟩ .f32)
    (k : Fin 10000) (c : Fin 128) : EReal :=
  (∑ l : Fin 128, x (ix2 k l) * wt (ix2 l c)) + bl (ix2 0 c)

/-- The layer's output at entry (r, c) over a given linear stage. -/
def outOver (adj : FVec Ideal ⟨2, ![10000, 10000]⟩ .f32) (lin : Fin 10000 → Fin 128 → EReal) (bias : FVec Ideal ⟨2, ![1, 128]⟩ .f32)
    (r : Fin 10000) (c : Fin 128) : EReal :=
  (∑ k : Fin 10000, adj (ix2 r k) * lin k c) + bias (ix2 0 c)

/-- The layer as the kernel reads its operands: the weight transposed, the linear bias a row. -/
def outT (adj : FVec Ideal ⟨2, ![10000, 10000]⟩ .f32) (x : FVec Ideal ⟨2, ![10000, 128]⟩ .f32) (wt : FVec Ideal ⟨2, ![128, 128]⟩ .f32)
    (bl : FVec Ideal ⟨2, ![1, 128]⟩ .f32) (bias : FVec Ideal ⟨2, ![1, 128]⟩ .f32) : FVec Ideal ⟨2, ![10000, 128]⟩ .f32 :=
  fun j => outOver adj (linearT x wt bl) bias (j 0) (j 1)

/-- The linear stage at entry (k, c) from the weight as given (one row per output feature) and the bias vector. -/
def linear (x : FVec Ideal ⟨2, ![10000, 128]⟩ .f32) (W : FVec Ideal ⟨2, ![128, 128]⟩ .f32) (b : FVec Ideal ⟨1, ![128]⟩ .f32)
    (k : Fin 10000) (c : Fin 128) : EReal :=
  (∑ l : Fin 128, x (ix2 k l) * W (ix2 c l)) + b (ix1 c)

/-- The layer: `adj · (x · Wᵀ + b) + bias`, entry by entry. -/
def out (adj : FVec Ideal ⟨2, ![10000, 10000]⟩ .f32) (x : FVec Ideal ⟨2, ![10000, 128]⟩ .f32) (W : FVec Ideal ⟨2, ![128, 128]⟩ .f32)
    (b : FVec Ideal ⟨1, ![128]⟩ .f32) (bias : FVec Ideal ⟨2, ![1, 128]⟩ .f32) : FVec Ideal ⟨2, ![10000, 128]⟩ .f32 :=
  fun j => outOver adj (linear x W b) bias (j 0) (j 1)

/-- Reading the weight through its transpose and the bias through a row changes nothing. -/
theorem linearT_eq_linear (x : FVec Ideal ⟨2, ![10000, 128]⟩ .f32)
    (W wt : FVec Ideal ⟨2, ![128, 128]⟩ .f32) (b : FVec Ideal ⟨1, ![128]⟩ .f32) (bl : FVec Ideal ⟨2, ![1, 128]⟩ .f32)
    (hwt : ∀ (l c : Fin 128), wt (ix2 l c) = W (ix2 c l)) (hbl : ∀ c : Fin 128, bl (ix2 0 c) = b (ix1 c)) :
    linearT x wt bl = linear x W b := by
  funext k c
  unfold linearT linear
  rw [hbl c]
  exact congrArg (· + b (ix1 c)) (Finset.sum_congr rfl fun l _ => by rw [hwt l c])

theorem outT_eq_out (adj : FVec Ideal ⟨2, ![10000, 10000]⟩ .f32) (x : FVec Ideal ⟨2, ![10000, 128]⟩ .f32)
    (W wt : FVec Ideal ⟨2, ![128, 128]⟩ .f32) (b : FVec Ideal ⟨1, ![128]⟩ .f32) (bl bias : FVec Ideal ⟨2, ![1, 128]⟩ .f32)
    (hwt : ∀ (l c : Fin 128), wt (ix2 l c) = W (ix2 c l)) (hbl : ∀ c : Fin 128, bl (ix2 0 c) = b (ix1 c)) :
    outT adj x wt bl bias = out adj x W b bias := by
  unfold outT out
  rw [linearT_eq_linear x W wt b bl hwt hbl]

end Cert.GraphConv

end
-- ==== Proof.KernelIdealPayloads.lean ====
/-
  The kernel's three stored values read at an entry, on the extended reals.

  The first point stores the linear stage: a product of the feature block with the transposed weight into the
  zero accumulator, plus the linear bias row repeated down the rows. Every point stores two 200-row pieces,
  each a product of an adjacency block with the linear stage into the zero accumulator, plus the output bias
  row repeated down the rows. At `Ideal` a product into the zero accumulator is the plain sum over the
  contracted axis, and a change of layout to the same shape is the identity.
-/
import proofs.«140354_g27693949124769_cont_9to1_341_8_alg».proof.Proof.Gen.KernelIdeal.Skeleton
import proofs.«140354_g27693949124769_cont_9to1_341_8_alg».proof.Proof.LibSplitContraction
import proofs.«140354_g27693949124769_cont_9to1_341_8_alg».proof.Proof.LayerSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx

/-! ## Where the two products read their operands -/

theorem lin_l0 (j q) : ((dot_S10000x128_S128x128_S10000x128_1_0_0_1_n_n).lhsIdx j q 0).val = (j 0).val := by
  unfold DotDims.lhsIdx
  rw [dif_neg (show ¬(0 : Fin S10000x128.rank) ∈ (dot_S10000x128_S128x128_S10000x128_1_0_0_1_n_n).lhsBatch by decide), dif_pos (show (0 : Fin S10000x128.rank) ∈ (dot_S10000x128_S128x128_S10000x128_1_0_0_1_n_n).lhsNonContracting by decide)]
  rfl
theorem lin_l1 (j q) : ((dot_S10000x128_S128x128_S10000x128_1_0_0_1_n_n).lhsIdx j q 1).val = (q ⟨0, by decide⟩).val := (dot_S10000x128_S128x128_S10000x128_1_0_0_1_n_n).lhsIdx_val_of_single rfl j q
theorem lin_r0 (j q) : ((dot_S10000x128_S128x128_S10000x128_1_0_0_1_n_n).rhsIdx j q 0).val = (q ⟨0, by decide⟩).val := (dot_S10000x128_S128x128_S10000x128_1_0_0_1_n_n).rhsIdx_val_of_single rfl j q
theorem lin_r1 (j q) : ((dot_S10000x128_S128x128_S10000x128_1_0_0_1_n_n).rhsIdx j q 1).val = (j 1).val := by
  unfold DotDims.rhsIdx
  rw [dif_neg (show ¬(1 : Fin S128x128.rank) ∈ (dot_S10000x128_S128x128_S10000x128_1_0_0_1_n_n).rhsBatch by decide), dif_pos (show (1 : Fin S128x128.rank) ∈ (dot_S10000x128_S128x128_S10000x128_1_0_0_1_n_n).rhsNonContracting by decide)]
  rfl

theorem agg_l0 (j q) : ((dot_S200x10000_S10000x128_S200x128_1_0_0_1_n_n).lhsIdx j q 0).val = (j 0).val := by
  unfold DotDims.lhsIdx
  rw [dif_neg (show ¬(0 : Fin S200x10000.rank) ∈ (dot_S200x10000_S10000x128_S200x128_1_0_0_1_n_n).lhsBatch by decide), dif_pos (show (0 : Fin S200x10000.rank) ∈ (dot_S200x10000_S10000x128_S200x128_1_0_0_1_n_n).lhsNonContracting by decide)]
  rfl
theorem agg_l1 (j q) : ((dot_S200x10000_S10000x128_S200x128_1_0_0_1_n_n).lhsIdx j q 1).val = (q ⟨0, by decide⟩).val := (dot_S200x10000_S10000x128_S200x128_1_0_0_1_n_n).lhsIdx_val_of_single rfl j q
theorem agg_r0 (j q) : ((dot_S200x10000_S10000x128_S200x128_1_0_0_1_n_n).rhsIdx j q 0).val = (q ⟨0, by decide⟩).val := (dot_S200x10000_S10000x128_S200x128_1_0_0_1_n_n).rhsIdx_val_of_single rfl j q
theorem agg_r1 (j q) : ((dot_S200x10000_S10000x128_S200x128_1_0_0_1_n_n).rhsIdx j q 1).val = (j 1).val := by
  unfold DotDims.rhsIdx
  rw [dif_neg (show ¬(1 : Fin S10000x128.rank) ∈ (dot_S200x10000_S10000x128_S200x128_1_0_0_1_n_n).rhsBatch by decide), dif_pos (show (1 : Fin S10000x128.rank) ∈ (dot_S200x10000_S10000x128_S200x128_1_0_0_1_n_n).rhsNonContracting by decide)]
  rfl

/-! ## The payloads at an entry -/

/-- The linear stage's entry (k, q): the row of features against the column of the transposed weight, plus the bias row's entry. -/
theorem linear_at (x2 : Vec Ideal S10000x128 .f32) (x3 : Vec Ideal S128x128 .f32) (x4 : Vec Ideal S1x128 .f32) (k : Fin 10000) (q : Fin 128) :
    k0_pay1 (F := Ideal) x2 x3 x4 (ix2 k q) = Cert.GraphConv.linearT x2 x3 x4 k q := by
  unfold k0_pay1 Cert.GraphConv.linearT
  rw [shapeCast_self, shapeCast_self, shapeCast_self]
  refine (addf_apply _ _ _).trans ?_
  refine congrArg₂ (· + ·) ?_ ?_
  · exact Cert.Lib.SplitContraction.matmul_zero_at dot_S10000x128_S128x128_S10000x128_1_0_0_1_n_n rfl rfl lin_l0 lin_l1 lin_r0 lin_r1 none x2 x3 k q
  · exact broadcastTo_1b_ab_apply x4 broadcasts_S1x128_S10000x128 k q

/-- A stored piece's entry (p, q): the adjacency block's row against the linear stage's column, plus the bias row's entry. -/
theorem rows_at (s : Vec Ideal S10000x128 .f32) (b : Vec Ideal S1x128 .f32) (a : Vec Ideal S200x10000 .f32) (p : Fin 200) (q : Fin 128) :
    k0_pay2 (F := Ideal) s b a (ix2 p q) = (∑ k : Fin 10000, a (ix2 p k) * s (ix2 k q)) + b (ix2 0 q) := by
  unfold k0_pay2
  refine (addf_apply _ _ _).trans ?_
  refine congrArg₂ (· + ·) ?_ ?_
  · exact Cert.Lib.SplitContraction.matmul_zero_at dot_S200x10000_S10000x128_S200x128_1_0_0_1_n_n rfl rfl agg_l0 agg_l1 agg_r0 agg_r1 none a s p q
  · exact broadcastTo_1b_ab_apply b broadcasts_S1x128_S200x128 p q

/-- The second stored piece is the same function of its operands as the first. -/
theorem pay3_eq_pay2 (s : Vec Ideal S10000x128 .f32) (b : Vec Ideal S1x128 .f32) (a : Vec Ideal S200x10000 .f32) :
    k0_pay3 (F := Ideal) s b a = k0_pay2 (F := Ideal) s b a := rfl

end Cert.KernelIdeal.Hand

end
-- ==== Proof.KernelIdealPieces.lean ====
/-
  What the runs' stores leave, as functions of the loaded blocks.

  The first point's one store into the scratch leaves the linear stage of the three blocks it loaded. Every
  point's two stores into the output block leave, in rows 0–199, the product of the first adjacency block with
  the linear stage plus the bias row, and in rows 200–399 the same of the second adjacency block. At the first
  point the linear stage the two products read is the one just stored (the scratch read back); later it is what
  the scratch carries.
-/
import proofs.«140354_g27693949124769_cont_9to1_341_8_alg».proof.Proof.KernelIdealBody
import proofs.«140354_g27693949124769_cont_9to1_341_8_alg».proof.Proof.KernelIdealPayloads

set_option maxRecDepth 16384

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl

/-- The output block after a point's two stores, from the linear stage `s`, the bias row `b` and the two adjacency blocks. -/
def twoPieces (s : Vec Ideal S10000x128 .f32) (b : Vec Ideal S1x128 .f32) (a0 a1 : Vec Ideal S200x10000 .f32) : Vec Ideal S400x128 .f32 :=
  View.canon [⟨(Rect.unit (s := S400x128) ![200, 0] S200x128.size inb_S400x128_S200x128_200_0), k0_pay3 (F := Ideal) s b a1⟩, ⟨(Rect.unit (s := S400x128) ![0, 0] S200x128.size inb_S400x128_S200x128_0_0), k0_pay2 (F := Ideal) s b a0⟩]

/-- The first point leaves the linear stage of its loaded blocks in the scratch. -/
theorem sout_first (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (hc0 : cond0_0 i)
    (x0 : Vec Ideal S200x10000 .f32) (x1 : Vec Ideal S200x10000 .f32) (x2 : Vec Ideal S10000x128 .f32) (x3 : Vec Ideal S128x128 .f32) (x4 : Vec Ideal S1x128 .f32) (x5 : Vec Ideal S1x128 .f32) :
    sout0_A_0 (F := Ideal) c i arg1 harg1 arg2 harg2 arg3 harg3 arg4 harg4 arg5 harg5 arg6 harg6 arg7 harg7 arg8 harg8 hc0 x0 x1 x2 x3 x4 x5 = k0_pay1 (F := Ideal) x2 x3 x4 := by
  unfold sout0_A_0
  rw [View.read_writes_eq_canon _ _ _ (scover0_A_0 c i arg1 harg1 arg2 harg2 arg3 harg3 arg4 harg4 arg5 harg5 arg6 harg6 arg7 harg7 arg8 harg8 hc0 x0 x1 x2 x3 x4 x5)]
  unfold kernelRun0_A
  dsimp only
  sl_unfold_words
  rw [View.canon_unit_zero hz2]
  simp only [View.readAt_eq_ld, Memref.IsWhole.read_unread, View.ld_unit_zero (S := S10000x128) hz2, View.ld_unit_zero (S := S128x128) hz2, View.ld_unit_zero (S := S1x128) hz2, View.ld_unit_zero (S := S200x10000) hz2]

/-- A later point leaves the two pieces over the linear stage the scratch carries. -/
theorem out_later (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (hc0 : ¬cond0_0 i)
    (x0 : Vec Ideal S200x10000 .f32) (x1 : Vec Ideal S200x10000 .f32) (x2 : Vec Ideal S10000x128 .f32) (x3 : Vec Ideal S128x128 .f32) (x4 : Vec Ideal S1x128 .f32) (x5 : Vec Ideal S1x128 .f32) (xs0 : Vec Ideal S10000x128 .f32) :
    out0_B_6 (F := Ideal) c i arg1 harg1 arg2 harg2 arg3 harg3 arg4 harg4 arg5 harg5 arg6 harg6 arg7 harg7 arg8 harg8 hc0 x0 x1 x2 x3 x4 x5 xs0 = twoPieces xs0 x5 x0 x1 := by
  unfold out0_B_6 twoPieces
  rw [View.read_writes_eq_canon _ _ _ (cover0_B_6 c i arg1 harg1 arg2 harg2 arg3 harg3 arg4 harg4 arg5 harg5 arg6 harg6 arg7 harg7 arg8 harg8 hc0 x0 x1 x2 x3 x4 x5 xs0)]
  unfold kernelRun0_B
  dsimp only
  sl_unfold_words
  simp only [View.readAt_eq_ld, Memref.IsWhole.read_unread, View.ld_unit_zero (S := S10000x128) hz2, View.ld_unit_zero (S := S128x128) hz2, View.ld_unit_zero (S := S1x128) hz2, View.ld_unit_zero (S := S200x10000) hz2]

/-- The first point leaves the two pieces over the linear stage it has just stored. -/
theorem out_first (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (hc0 : cond0_0 i)
    (x0 : Vec Ideal S200x10000 .f32) (x1 : Vec Ideal S200x10000 .f32) (x2 : Vec Ideal S10000x128 .f32) (x3 : Vec Ideal S128x128 .f32) (x4 : Vec Ideal S1x128 .f32) (x5 : Vec Ideal S1x128 .f32) :
    out0_A_6 (F := Ideal) c i arg1 harg1 arg2 harg2 arg3 harg3 arg4 harg4 arg5 harg5 arg6 harg6 arg7 harg7 arg8 harg8 hc0 x0 x1 x2 x3 x4 x5 = twoPieces (k0_pay1 (F := Ideal) x2 x3 x4) x5 x0 x1 := by
  unfold out0_A_6 twoPieces
  rw [View.read_writes_eq_canon _ _ _ (cover0_A_6 c i arg1 harg1 arg2 harg2 arg3 harg3 arg4 harg4 arg5 harg5 arg6 harg6 arg7 harg7 arg8 harg8 hc0 x0 x1 x2 x3 x4 x5)]
  unfold kernelRun0_A
  dsimp only
  sl_unfold_words
  rw [View.readCov_unit_zero _ hz2]
  simp only [View.readAt_eq_ld, Memref.IsWhole.read_unread, View.ld_unit_zero (S := S10000x128) hz2, View.ld_unit_zero (S := S128x128) hz2, View.ld_unit_zero (S := S1x128) hz2, View.ld_unit_zero (S := S200x10000) hz2]

/-! ## The two pieces at an entry -/

/-- Rows 0–199 of the block are the first piece. -/
theorem twoPieces_low (s : Vec Ideal S10000x128 .f32) (b : Vec Ideal S1x128 .f32) (a0 a1 : Vec Ideal S200x10000 .f32)
    (p : Fin 200) (q : Fin 128) (P : Fin 400) (hP : P.val = p.val) :
    twoPieces s b a0 a1 (ix2 P q) = k0_pay2 (F := Ideal) s b a0 (ix2 p q) := by
  unfold twoPieces
  have hn : (ix2 P q : S400x128.Idx) ∉ (Rect.unit (s := S400x128) ![200, 0] S200x128.size inb_S400x128_S200x128_200_0).set := fun hmem => by
    have h := Rect.mem_set_unit.mp hmem
    have h0 : (200 : ℕ) ≤ P.val := (h 0).1
    have := p.isLt
    omega
  rw [View.canon_cons_of_not_mem (⟨(Rect.unit (s := S400x128) ![200, 0] S200x128.size inb_S400x128_S200x128_200_0), k0_pay3 (F := Ideal) s b a1⟩ : View.Piece (Elt Ideal) S400x128 .f32) [⟨(Rect.unit (s := S400x128) ![0, 0] S200x128.size inb_S400x128_S200x128_0_0), k0_pay2 (F := Ideal) s b a0⟩] hn]
  have he : (ix2 P q : S400x128.Idx) = (Rect.unit (s := S400x128) ![0, 0] S200x128.size inb_S400x128_S200x128_0_0).emb (ix2 p q) := funext fun a => Fin.ext (by
    match a with
    | ⟨0, _⟩ => show P.val = 0 + 1 * p.val; omega
    | ⟨1, _⟩ => show q.val = 0 + 1 * q.val; omega)
  rw [he]
  exact View.canon_cons_emb _ _ _ _

/-- Rows 200–399 of the block are the second piece. -/
theorem twoPieces_high (s : Vec Ideal S10000x128 .f32) (b : Vec Ideal S1x128 .f32) (a0 a1 : Vec Ideal S200x10000 .f32)
    (p : Fin 200) (q : Fin 128) (P : Fin 400) (hP : P.val = 200 + p.val) :
    twoPieces s b a0 a1 (ix2 P q) = k0_pay2 (F := Ideal) s b a1 (ix2 p q) := by
  unfold twoPieces
  have he : (ix2 P q : S400x128.Idx) = (Rect.unit (s := S400x128) ![200, 0] S200x128.size inb_S400x128_S200x128_200_0).emb (ix2 p q) := funext fun a => Fin.ext (by
    match a with
    | ⟨0, _⟩ => show P.val = 200 + 1 * p.val; omega
    | ⟨1, _⟩ => show q.val = 0 + 1 * q.val; omega)
  rw [he]
  exact View.canon_cons_emb _ _ _ _

end Cert.KernelIdeal.Hand

end
-- ==== Proof.KernelIdealValue.lean ====
/-
  The array the idealized kernel leaves: the graph-convolution layer of the arrays the region is entered with.

  At grid point `t` the two adjacency windows stage rows `400 t … 400 t + 199` and `400 t + 200 … 400 t + 399`
  of the matrix, the four other inputs their whole arrays; the scratch holds the linear stage of the features,
  the transposed weight and the linear-bias row from the first point on. So the 400 × 128 block point `t`
  writes back is rows `400 t … 400 t + 399` of `adj · linear + bias`, entry by entry. The 25 blocks tile the
  10000 rows, so the whole result array is that function. The transposed weight and the bias row were written
  by the two host operations before the region; read at an entry they are the weight's transposed entry and the
  bias vector's entry, and no host operation writes an argument.
-/
import proofs.«140354_g27693949124769_cont_9to1_341_8_alg».proof.Proof.KernelIdealFrame
import proofs.«140354_g27693949124769_cont_9to1_341_8_alg».proof.Proof.KernelIdealPieces
import Idealize.ShloMosaic.Lib.StableHlo.Run

set_option maxRecDepth 16384

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Cert.GraphConv

/-! ## The arrays as the region finds them -/

/-- The adjacency matrix, the features, the transposed weight, the linear-bias row and the output-bias row when the region
    is entered (kept as names: what they hold is opened only where it is needed). -/
def Adj (c : Dev nD) : FVec Ideal ⟨2, ![10000, 10000]⟩ .f32 := V m c main_arg0
def Feat (c : Dev nD) : FVec Ideal ⟨2, ![10000, 128]⟩ .f32 := V m c main_arg1
def Wt (c : Dev nD) : FVec Ideal ⟨2, ![128, 128]⟩ .f32 := V m c main_call0_v0
def Bl (c : Dev nD) : FVec Ideal ⟨2, ![1, 128]⟩ .f32 := V m c main_call0_v1
def Bias (c : Dev nD) : FVec Ideal ⟨2, ![1, 128]⟩ .f32 := V m c main_arg4

/-- The printed index maps, decided over the 25 grid points. -/
theorem idx_facts : ∀ t : Fin cfg0.N, win0_0.index t (0 : Fin 2) = 2 * t.val
    ∧ win0_0.index t (1 : Fin 2) = 0
    ∧ win0_1.index t (0 : Fin 2) = 2 * t.val + 1
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = t.val
    ∧ win0_6.index t (1 : Fin 2) = 0 :=
  (by decide +kernel : ∀ t : Fin grid0.N, _)

/-! ## The windows' blocks read at an entry -/

/-- Window 0's block at point `t` is rows `400 t` … of the adjacency matrix. -/
theorem iblk0_at (c : Dev nD) (t : Fin cfg0.N) (p : Fin 200) (k : Fin 10000) (R : Fin 10000) (hR : R.val = 400 * t.val + p.val) :
    (iblk (F := Ideal) m c 0 t : S200x10000.Idx → EReal) (ix2 p k) = Adj m c (ix2 R k) := by
  obtain ⟨e00, e01, e10, e11, e20, e21, e30, e31, e40, e41, e50, e51, e60, e61⟩ := idx_facts t
  show V m c main_arg0 (((cfg0.win 0).blk t).view.emb (ix2 p k : S200x10000.Idx)) = V m c main_arg0 (ix2 R k : S10000x10000.Idx)
  refine congrArg (V m c main_arg0) (funext fun a => Fin.ext ?_)
  match a with
  | ⟨0, _⟩ => show win0_0.index t (0 : Fin 2) * 200 + 1 * p.val = R.val; omega
  | ⟨1, _⟩ => show win0_0.index t (1 : Fin 2) * 10000 + 1 * k.val = k.val; omega

/-- Window 1's block at point `t` is rows `400 t + 200` … of the adjacency matrix. -/
theorem iblk1_at (c : Dev nD) (t : Fin cfg0.N) (p : Fin 200) (k : Fin 10000) (R : Fin 10000) (hR : R.val = 400 * t.val + 200 + p.val) :
    (iblk (F := Ideal) m c 1 t : S200x10000.Idx → EReal) (ix2 p k) = Adj m c (ix2 R k) := by
  obtain ⟨e00, e01, e10, e11, e20, e21, e30, e31, e40, e41, e50, e51, e60, e61⟩ := idx_facts t
  show V m c main_arg0 (((cfg0.win 1).blk t).view.emb (ix2 p k : S200x10000.Idx)) = V m c main_arg0 (ix2 R k : S10000x10000.Idx)
  refine congrArg (V m c main_arg0) (funext fun a => Fin.ext ?_)
  match a with
  | ⟨0, _⟩ => show win0_1.index t (0 : Fin 2) * 200 + 1 * p.val = R.val; omega
  | ⟨1, _⟩ => show win0_1.index t (1 : Fin 2) * 10000 + 1 * k.val = k.val; omega

/-- Window 2 stages its whole array at every point. -/
theorem iblk2_eq (c : Dev nD) (t : Fin cfg0.N) : (iblk (F := Ideal) m c 2 t : S10000x128.Idx → EReal) = Feat m c := by
  obtain ⟨e00, e01, e10, e11, e20, e21, e30, e31, e40, e41, e50, e51, e60, e61⟩ := idx_facts t
  funext j
  show V m c main_arg1 (((cfg0.win 2).blk t).view.emb j) = V m c main_arg1 j
  refine congrArg (V m c main_arg1) (funext fun a => Fin.ext ?_)
  match a with
  | ⟨0, _⟩ => show win0_2.index t (0 : Fin 2) * 10000 + 1 * (j 0).val = (j 0).val; omega
  | ⟨1, _⟩ => show win0_2.index t (1 : Fin 2) * 128 + 1 * (j 1).val = (j 1).val; omega

/-- Window 3 stages its whole array at every point. -/
theorem iblk3_eq (c : Dev nD) (t : Fin cfg0.N) : (iblk (F := Ideal) m c 3 t : S128x128.Idx → EReal) = Wt m c := by
  obtain ⟨e00, e01, e10, e11, e20, e21, e30, e31, e40, e41, e50, e51, e60, e61⟩ := idx_facts t
  funext j
  show V m c main_call0_v0 (((cfg0.win 3).blk t).view.emb j) = V m c main_call0_v0 j
  refine congrArg (V m c main_call0_v0) (funext fun a => Fin.ext ?_)
  match a with
  | ⟨0, _⟩ => show win0_3.index t (0 : Fin 2) * 128 + 1 * (j 0).val = (j 0).val; omega
  | ⟨1, _⟩ => show win0_3.index t (1 : Fin 2) * 128 + 1 * (j 1).val = (j 1).val; omega

/-- Window 4 stages its whole array at every point. -/
theorem iblk4_eq (c : Dev nD) (t : Fin cfg0.N) : (iblk (F := Ideal) m c 4 t : S1x128.Idx → EReal) = Bl m c := by
  obtain ⟨e00, e01, e10, e11, e20, e21, e30, e31, e40, e41, e50, e51, e60, e61⟩ := idx_facts t
  funext j
  show V m c main_call0_v1 (((cfg0.win 4).blk t).view.emb j) = V m c main_call0_v1 j
  refine congrArg (V m c main_call0_v1) (funext fun a => Fin.ext ?_)
  match a with
  | ⟨0, _⟩ => show win0_4.index t (0 : Fin 2) * 1 + 1 * (j 0).val = (j 0).val; omega
  | ⟨1, _⟩ => show win0_4.index t (1 : Fin 2) * 128 + 1 * (j 1).val = (j 1).val; omega

/-- Window 5 stages its whole array at every point. -/
theorem iblk5_eq (c : Dev nD) (t : Fin cfg0.N) : (iblk (F := Ideal) m c 5 t : S1x128.Idx → EReal) = Bias m c := by
  obtain ⟨e00, e01, e10, e11, e20, e21, e30, e31, e40, e41, e50, e51, e60, e61⟩ := idx_facts t
  funext j
  show V m c main_arg4 (((cfg0.win 5).blk t).view.emb j) = V m c main_arg4 j
  refine congrArg (V m c main_arg4) (funext fun a => Fin.ext ?_)
  match a with
  | ⟨0, _⟩ => show win0_5.index t (0 : Fin 2) * 1 + 1 * (j 0).val = (j 0).val; omega
  | ⟨1, _⟩ => show win0_5.index t (1 : Fin 2) * 128 + 1 * (j 1).val = (j 1).val; omega

/-! ## What the scratch carries, and what a point leaves -/

/-- The scratch carries the linear stage of the features, the transposed weight and the linear-bias row. -/
theorem supp_at (c : Dev nD) (k : Fin 10000) (q : Fin 128) :
    (supp (F := Ideal) m c : S10000x128.Idx → EReal) (ix2 k q) = linearT (Feat m c) (Wt m c) (Bl m c) k q := by
  unfold supp
  rw [sout_first, linear_at, iblk2_eq, iblk3_eq, iblk4_eq]

/-- At every point the output's buffer ends at the two pieces over the carried linear stage. -/
theorem out6_eq (c : Dev nD) (t : Fin cfg0.N) :
    out6 (F := Ideal) m c t = twoPieces (supp (F := Ideal) m c) (iblk m c 5 t) (iblk m c 0 t) (iblk m c 1 t) := by
  unfold out6
  by_cases h : t.val = 0
  · rw [dif_pos h, out_first]
    obtain rfl : t = t₀ := Fin.ext h
    unfold supp
    rw [sout_first]
  · rw [dif_neg h, out_later]

/-- The block over variables: two pieces whose adjacency rows are rows `400 T + …` of `adj` and whose linear stage is
    `lin` hold, at entry (P, q), the layer's entry (400 T + P, q). -/
theorem block_entry (adj : FVec Ideal ⟨2, ![10000, 10000]⟩ .f32) (lin : Fin 10000 → Fin 128 → EReal) (bias : FVec Ideal ⟨2, ![1, 128]⟩ .f32)
    (s : Vec Ideal S10000x128 .f32) (b : Vec Ideal S1x128 .f32) (a0 a1 : Vec Ideal S200x10000 .f32) (T : ℕ)
    (hs : ∀ (k : Fin 10000) (q : Fin 128), s (ix2 k q) = lin k q) (hb : ∀ q : Fin 128, b (ix2 0 q) = bias (ix2 0 q))
    (h0 : ∀ (p : Fin 200) (k : Fin 10000) (R : Fin 10000), R.val = 400 * T + p.val → a0 (ix2 p k) = adj (ix2 R k))
    (h1 : ∀ (p : Fin 200) (k : Fin 10000) (R : Fin 10000), R.val = 400 * T + 200 + p.val → a1 (ix2 p k) = adj (ix2 R k))
    (P : Fin 400) (q : Fin 128) (R : Fin 10000) (hR : R.val = 400 * T + P.val) :
    twoPieces s b a0 a1 (ix2 P q) = outOver adj lin bias R q := by
  unfold outOver
  by_cases hP : P.val < 200
  · rw [twoPieces_low s b a0 a1 ⟨P.val, hP⟩ q P rfl, rows_at, hb]
    refine congrArg (· + bias (ix2 0 q)) (Finset.sum_congr rfl fun k _ => ?_)
    rw [h0 ⟨P.val, hP⟩ k R hR, hs]
  · have hP' : P.val - 200 < 200 := by have := P.isLt; omega
    rw [twoPieces_high s b a0 a1 ⟨P.val - 200, hP'⟩ q P (by show P.val = 200 + (P.val - 200); omega), rows_at, hb]
    refine congrArg (· + bias (ix2 0 q)) (Finset.sum_congr rfl fun k _ => ?_)
    rw [h1 ⟨P.val - 200, hP'⟩ k R (by show R.val = 400 * T + 200 + (P.val - 200); omega), hs]

/-- The layer of the region-entry arrays. -/
def layerV (c : Dev nD) : FVec Ideal ⟨2, ![10000, 128]⟩ .f32 := outT (Adj m c) (Feat m c) (Wt m c) (Bl m c) (Bias m c)

/-- WHAT POINT `t` WRITES BACK is block `t` of the layer of the region-entry arrays. -/
theorem flushed_eq (c : Dev nD) (t : Fin cfg0.N) :
    (dats (F := Ideal) m 0 c).flushed 6 t = ((cfg0.win 6).blk t).view.read (Elt Ideal) (layerV m c) := by
  show (cfg0.win 6).cut (grid0.coords t) ((dats (F := Ideal) m 0 c).after 6 t) = _
  rw [after0_6, out6_eq]
  have key : ∀ y : S400x128.Idx, twoPieces (supp (F := Ideal) m c) (iblk m c 5 t) (iblk m c 0 t) (iblk m c 1 t) y
      = layerV m c (((cfg0.win 6).blk t).view.emb y) := fun y => by
    obtain ⟨P, q, rfl⟩ : ∃ (P : Fin 400) (q : Fin 128), y = ix2 P q := ⟨y 0, y 1, eq_ix2 y⟩
    obtain ⟨e00, e01, e10, e11, e20, e21, e30, e31, e40, e41, e50, e51, e60, e61⟩ := idx_facts t
    have hN : t.val < 25 := lt_of_lt_of_eq t.isLt N_0
    have hlt : 400 * t.val + P.val < 10000 := by have := P.isLt; omega
    have he : ((cfg0.win 6).blk t).view.emb (ix2 P q : S400x128.Idx) = (ix2 (⟨400 * t.val + P.val, hlt⟩ : Fin 10000) q : S10000x128.Idx) :=
      funext fun a => Fin.ext (by
        match a with
        | ⟨0, _⟩ => show win0_6.index t (0 : Fin 2) * 400 + 1 * P.val = 400 * t.val + P.val; omega
        | ⟨1, _⟩ => show win0_6.index t (1 : Fin 2) * 128 + 1 * q.val = q.val; omega)
    rw [he]
    show _ = outOver (Adj m c) (linearT (Feat m c) (Wt m c) (Bl m c)) (Bias m c) ⟨400 * t.val + P.val, hlt⟩ q
    exact block_entry (Adj m c) (linearT (Feat m c) (Wt m c) (Bl m c)) (Bias m c) _ _ _ _ t.val
      (supp_at m c) (fun q => by rw [iblk5_eq]) (iblk0_at m c t) (iblk1_at m c t) P q _ rfl
  funext y
  exact key y

/-! ## The 25 blocks tile the array -/

theorem mem_blk6 (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v0).slice (win0_6.rect t)).set ↔ _
  rw [View.set_slice_whole, Rect.mem_set_unit]
  exact Iff.rfl

/-- Row `r` lies in the block of point `r / 400`. -/
theorem cover6 (i : S10000x128.Idx) : ∃ t : Fin cfg0.N, (cfg0.win 6).flush t = true ∧ i ∈ ((cfg0.win 6).blk t).view.set := by
  have hi0 : (i 0).val < 10000 := (i 0).isLt
  have hi1 : (i 1).val < 128 := (i 1).isLt
  have hN : cfg0.N = 25 := N_0
  have hT : (i 0).val / 400 < cfg0.N := by omega
  obtain ⟨e00, e01, e10, e11, e20, e21, e30, e31, e40, e41, e50, e51, e60, e61⟩ := idx_facts ⟨(i 0).val / 400, hT⟩
  refine ⟨⟨(i 0).val / 400, hT⟩, flush0_6 _, ?_⟩
  rw [mem_blk6]
  intro a
  match a with
  | ⟨0, _⟩ =>
    show win0_6.index ⟨(i 0).val / 400, hT⟩ (0 : Fin 2) * 400 ≤ (i 0).val ∧ (i 0).val < win0_6.index ⟨(i 0).val / 400, hT⟩ (0 : Fin 2) * 400 + 400
    rw [e60]; show (i 0).val / 400 * 400 ≤ (i 0).val ∧ (i 0).val < (i 0).val / 400 * 400 + 400; omega
  | ⟨1, _⟩ =>
    show win0_6.index ⟨(i 0).val / 400, hT⟩ (1 : Fin 2) * 128 ≤ (i 1).val ∧ (i 1).val < win0_6.index ⟨(i 0).val / 400, hT⟩ (1 : Fin 2) * 128 + 128
    rw [e61]; omega

/-- THE RESULT ARRAY after the run: the layer of the region-entry arrays. -/
theorem final (c : Dev nD) : (dats (F := Ideal) m 0 c).arrAt 6 cfg0.N = layerV m c :=
  (dats (F := Ideal) m 0 c).arrAt_eq_of_cover 6 (layerV m c) (fun t _ => flushed_eq m c t) cover6

end Cert.KernelIdeal.Hand

end
-- ==== Proof.KernelIdealResult.lean ====
/-
  The idealized kernel's run, re-posted: the result array ends at the graph-convolution layer of the five
  argument arrays as launched, and the arguments end unchanged.

  The two operands the host prepared before the region read, at an entry, as the weight's transposed entry and
  the bias vector's entry; the other three windowed operands are the arguments themselves, which no host
  operation writes. So the layer of the region-entry arrays is the layer of the arguments.
-/
import proofs.«140354_g27693949124769_cont_9to1_341_8_alg».proof.Proof.KernelIdealValue
import Idealize.ShloMosaic.Lib.ValueLayout

set_option maxRecDepth 16384

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Cert.GraphConv

/-- The first host operation leaves the weight transposed. -/
theorem Wt_eq (c : Dev nD) : (V m c main_call0_v0 : S128x128.Idx → EReal)
    = transpose S128x128 [1, 0] (m ((c : Thread nD τ).loc main_arg2)) transposes_S128x128_S128x128_1_0 := by
  dsimp only [V, hostOps0]; after_results; rfl

/-- The second leaves the linear bias as a one-row array. -/
theorem Bl_eq (c : Dev nD) : (V m c main_call0_v1 : S1x128.Idx → EReal)
    = shapeCast S1x128 (m ((c : Thread nD τ).loc main_arg3)) shapeCasts_S128_S1x128 := by
  dsimp only [V, hostOps0]; after_results; rfl

/-- The transposed weight's entry (l, q) is the weight's entry (q, l). -/
theorem Wt_at (c : Dev nD) (l q : Fin 128) : Wt m c (ix2 l q) = ((m ((c : Thread nD τ).loc main_arg2)) : S128x128.Idx → EReal) (ix2 q l) := by
  unfold Wt
  rw [Wt_eq]
  exact transpose_apply [1, 0] _ transposes_S128x128_S128x128_1_0 (ix2 l q) (ix2 q l) (fun b => match b with
    | ⟨0, _⟩ => rfl
    | ⟨1, _⟩ => rfl)

/-- The bias row's entry (0, q) is the bias vector's entry q. -/
theorem Bl_at (c : Dev nD) (q : Fin 128) : Bl m c (ix2 0 q) = ((m ((c : Thread nD τ).loc main_arg3)) : S128.Idx → EReal) (ix1 q) := by
  unfold Bl
  rw [Bl_eq]
  exact shapeCast_a_1a_apply _ shapeCasts_S128_S1x128 0 q

/-- The layer of the region-entry arrays is the layer of the arguments. -/
theorem layerV_eq (c : Dev nD) : layerV m c = out (m ((c : Thread nD τ).loc main_arg0)) (m ((c : Thread nD τ).loc main_arg1)) (m ((c : Thread nD τ).loc main_arg2)) (m ((c : Thread nD τ).loc main_arg3)) (m ((c : Thread nD τ).loc main_arg4)) := by
  unfold layerV Adj Feat Bias
  rw [V_main_arg0, V_main_arg1, V_main_arg4]
  exact outT_eq_out _ _ (m ((c : Thread nD τ).loc main_arg2)) (Wt m c) (m ((c : Thread nD τ).loc main_arg3)) (Bl m c) _ (Wt_at m c) (Bl_at m c)

/-- Every weakly fair execution of the idealized kernel terminates with the result array at the layer of the arguments
    and the arguments unchanged. -/
theorem run_value : θ_run defs (onTc (τ := τ) (main (F := Ideal))) ⟨m, fun _ => 0, ρ⟩ (fun r => ∀ c : Dev nD,
      r.2.mem ((c.tc : Thread nD τ).loc main_v0) = out (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).1 6).trans ((final m c).trans (layerV_eq m c)),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c)))⟩) (run_main m ρ)

end Cert.KernelIdeal.Hand

end
-- ==== Proof.ReferenceIsLayer.lean ====
/-
  The reference program's result, one operation at a time, is the graph-convolution layer of its arguments.

  The reference transposes the weight, contracts the features with it, adds the linear bias (broadcast to a
  row and then down the rows), contracts the adjacency matrix with that, and adds the output bias row
  broadcast down the rows. Read at entry (r, c) this is
  `Σ_k adj[r,k] · (Σ_l x[k,l] · W[c,l] + b[c]) + bias[0,c]`: the layer's entry, term for term.
-/
import proofs.«140354_g27693949124769_cont_9to1_341_8_alg».proof.Proof.Gen.ReferenceIdeal.Read
import proofs.«140354_g27693949124769_cont_9to1_341_8_alg».proof.Proof.LayerSpec

noncomputable section

namespace Cert.ReferenceIdeal.RefValue

open Cert.ReferenceIdeal Cert.ReferenceIdeal.Gen Cert.ReferenceIdeal.Read
open Idealize.ShloMosaic Idealize.ShloMosaic.ValueIdx Cert.GraphConv

/-- The reference's last stage is the layer. -/
theorem val_eq_out (x0 : (⟨S10000x10000, .f32⟩ : BufTy).Contents (Elt Ideal)) (x1 : (⟨S10000x128, .f32⟩ : BufTy).Contents (Elt Ideal))
    (x2 : (⟨S128x128, .f32⟩ : BufTy).Contents (Elt Ideal)) (x3 : (⟨S128, .f32⟩ : BufTy).Contents (Elt Ideal))
    (x4 : (⟨S1x128, .f32⟩ : BufTy).Contents (Elt Ideal)) :
    val_main_v7 (F := Ideal) x0 x1 x2 x3 x4 = out x0 x1 x2 x3 x4 := by
  funext i
  obtain ⟨r, c, rfl⟩ : ∃ (r : Fin 10000) (c : Fin 128), i = ix2 r c := ⟨i 0, i 1, eq_ix2 i⟩
  rw [val_main_v7_apply, val_main_v5_apply, val_main_v6_apply]
  have e6 : idx_main_v6 (ix2 r c) = ix2 (0 : Fin 1) c := funext fun a => Fin.ext (by
    match a with | ⟨0, _⟩ => rfl | ⟨1, _⟩ => rfl)
  rw [e6]
  show (∑ k : Fin 10000, x0 (lidx_main_v5 (ix2 r c) k) * val_main_v4 (F := Ideal) x1 x2 x3 (ridx_main_v5 (ix2 r c) k)) + x4 (ix2 (0 : Fin 1) c)
    = outOver x0 (linear x1 x2 x3) x4 r c
  unfold outOver
  refine congrArg (· + x4 (ix2 (0 : Fin 1) c)) (Finset.sum_congr rfl fun k _ => ?_)
  have el : lidx_main_v5 (ix2 r c) k = ix2 r k := funext fun a => Fin.ext (by
    match a with | ⟨0, _⟩ => rfl | ⟨1, _⟩ => rfl)
  have er : ridx_main_v5 (ix2 r c) k = ix2 k c := funext fun a => Fin.ext (by
    match a with | ⟨0, _⟩ => rfl | ⟨1, _⟩ => rfl)
  rw [el, er, val_main_v4_apply, val_main_v1_apply, val_main_v3_apply, val_main_v2_apply]
  refine congrArg (x0 (ix2 r k) * ·) ?_
  show (∑ l : Fin 128, x1 (lidx_main_v1 (ix2 k c) l) * val_main_v0 (F := Ideal) x2 (ridx_main_v1 (ix2 k c) l)) + x3 (idx_main_v2 (idx_main_v3 (ix2 k c)))
    = linear x1 x2 x3 k c
  unfold linear
  have e3 : idx_main_v2 (idx_main_v3 (ix2 k c)) = ix1 c := funext fun a => Fin.ext (by
    match a with | ⟨0, _⟩ => rfl)
  rw [e3]
  refine congrArg (· + x3 (ix1 c)) (Finset.sum_congr rfl fun l _ => ?_)
  have el1 : lidx_main_v1 (ix2 k c) l = ix2 k l := funext fun a => Fin.ext (by
    match a with | ⟨0, _⟩ => rfl | ⟨1, _⟩ => rfl)
  have er1 : idx_main_v0 (ridx_main_v1 (ix2 k c) l) = ix2 c l := funext fun a => Fin.ext (by
    match a with | ⟨0, _⟩ => rfl | ⟨1, _⟩ => rfl)
  rw [el1, val_main_v0_apply, er1]

end Cert.ReferenceIdeal.RefValue

end
-- ==== Proof.lean ====
/-
  A Pallas graph-convolution kernel against its jnp reference: `out = adj · (x · Wᵀ + b) + bias` over a dense
  10000 × 10000 adjacency matrix, equal as extended reals entry by entry.

  The kernel streams the adjacency matrix through two windows of 200 rows each (the same array handed to the
  pallas_call twice), computes the linear stage `x · Wᵀ + b` once, at the first of its 25 grid points, into a
  scratch buffer that persists, and at every point stores two 200-row products of an adjacency block with that
  stage, plus the output bias row, into one 400-row output block. The reference computes the same two
  contractions whole. Both are the same sums with the same grouping, so at the ideal instance the two results are
  one function of the five arguments (`Cert.GraphConv.out`) and no finiteness of the inputs is used.

  * The frames of the kernel and of its idealization: the run of the one pipelined region with its two windows on
    one array (that array dealt to them at the two halves of the full share) and the scratch tracked from point to
    point; the five arguments are windowed inputs or buffers the region passes by, so they end as launched.
  * The idealization rewrote nothing: there is nothing to preserve.
  * The reference's frame is its run with the result dropped.
  * The value claim: the idealized kernel's 25 written-back blocks tile the result array with the layer's rows; the
    reference's last stage, read one operation at a time, is the layer.
-/
import proofs.«140354_g27693949124769_cont_9to1_341_8_alg».proof.Defs
import proofs.«140354_g27693949124769_cont_9to1_341_8_alg».proof.Proof.Gen.Kernel
import proofs.«140354_g27693949124769_cont_9to1_341_8_alg».proof.Proof.Gen.KernelIdeal
import proofs.«140354_g27693949124769_cont_9to1_341_8_alg».proof.Proof.Gen.ReferenceIdeal
import proofs.«140354_g27693949124769_cont_9to1_341_8_alg».proof.Proof.Gen.Pre_finite_inputs
import proofs.«140354_g27693949124769_cont_9to1_341_8_alg».proof.Proof.Gen.ReferenceIdeal.Run
import proofs.«140354_g27693949124769_cont_9to1_341_8_alg».proof.Proof.Gen.ReferenceIdeal.Read
import proofs.«140354_g27693949124769_cont_9to1_341_8_alg».proof.Proof.KernelFrame
import proofs.«140354_g27693949124769_cont_9to1_341_8_alg».proof.Proof.KernelIdealResult
import proofs.«140354_g27693949124769_cont_9to1_341_8_alg».proof.Proof.ReferenceIsLayer
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments as launched. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the five arguments both programs end with the layer of those arguments in their
    result arrays. -/
theorem algebraic : Cert.algebraic_KernelIdeal_ReferenceIdeal := by
  intro m ρ m' ρ' _ hagree
  refine ⟨fun c => Cert.GraphConv.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Hand.run_value m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v7_eq, Cert.ReferenceIdeal.RefValue.val_eq_out, (hagree c).1, (hagree c).2.1, (hagree c).2.2.1, (hagree c).2.2.2.1,
    (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
